-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg8
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S5000x128 : Shape := ⟨2, ![5000, 128]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x2 : Shape := ⟨2, ![1, 2]⟩
abbrev S512x2 : Shape := ⟨2, ![512, 2]⟩

abbrev nBuf : Space → Nat
  | .hbm => 148
  | .vmem => 14
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S1700000, .f32⟩
  | 20 => ⟨S100000x128, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000, .f32⟩
  | 4 => ⟨S_, .f32⟩
  | 5 => ⟨S512, .f32⟩
  | 6 => ⟨S100000x1, .i32⟩
  | 7 => ⟨S512, .f32⟩
  | 8 => ⟨S_, .f32⟩
  | 9 => ⟨S512x128, .f32⟩
  | 10 => ⟨S100000x1, .i32⟩
  | 11 => ⟨S512x128, .f32⟩
  | 12 => ⟨S_, .f32⟩
  | 13 => ⟨S512, .f32⟩
  | 14 => ⟨S512, .f32⟩
  | 15 => ⟨S512x1, .f32⟩
  | 16 => ⟨S512x128, .f32⟩
  | 17 => ⟨S512x128, .f32⟩
  | 18 => ⟨S1x2, .f32⟩
  | 19 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S512x128, .f32⟩
  | .local _ .vmem, ⟨11, _⟩ => ⟨S128x2, .f32⟩
  | .local _ .vmem, ⟨12, _⟩ => ⟨S1x2, .f32⟩
  | .local _ .vmem, ⟨13, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call3_cst : Ref sig .tc := ⟨.hbm, 127, rfl⟩
abbrev main_call3_v0 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2.size a ≤ S512x2.size a
  hwx2_3 : ∀ i : grid2.Coords, EltTy.bits .f32 = 32 ∨ (Rect.block (s := S512x2) S512x2.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v102) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S512x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x2 : Shape := ⟨2, ![512, 2]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S1700000, .f32⟩
  | 20 => ⟨S100000x128, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000, .f32⟩
  | 4 => ⟨S_, .f32⟩
  | 5 => ⟨S512, .f32⟩
  | 6 => ⟨S100000x1, .i32⟩
  | 7 => ⟨S512, .f32⟩
  | 8 => ⟨S_, .f32⟩
  | 9 => ⟨S512x128, .f32⟩
  | 10 => ⟨S100000x1, .i32⟩
  | 11 => ⟨S512x128, .f32⟩
  | 12 => ⟨S_, .f32⟩
  | 13 => ⟨S512, .f32⟩
  | 14 => ⟨S512, .f32⟩
  | 15 => ⟨S512x1, .f32⟩
  | 16 => ⟨S512x128, .f32⟩
  | 17 => ⟨S512x128, .f32⟩
  | 18 => ⟨S512x2, .f32⟩
  | 19 => ⟨S1x2, .f32⟩
  | 20 => ⟨S512x2, .f32⟩
  | 21 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call3_cst : Ref sig .tc := ⟨.hbm, 127, rfl⟩
abbrev main_call3_v0 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.ValueRun.lean ====
/-
  The idealized kernel's run with its RESULT named.

  The program is thirteen segments: stretches of host operations and three kernel regions.  Between two segments the
  TensorCore's unscoped buffers hold a known valuation — the launch memory, then each stretch's operations applied
  (`StableHlo.after`), then at a region's exit the region's arrays replaced by what its write-backs leave — and the
  generated frame names these valuations `W0 … W13`.  Every weakly fair execution terminates in a state whose
  unscoped buffers hold the last valuation `W13`; the frame reads the ten argument buffers off it.  Here the result
  buffer (`%104`, the last region's output) is read off it as well: it ends holding `W13` at that buffer.  The launch
  is the library's theorem for a program given as a list of segments: from the launch memory each thread holds its
  unscoped buffers at `W0`, consecutive segments chain because each ends where the next begins, and the last
  thread state, read against the final memory, gives every unscoped buffer at `W13`.
-/
import proofs.«134480_j73272142070373_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of the idealized kernel terminates, nothing faulting, with the result buffer at the
    last boundary valuation and the ten argument arrays as launched. -/
theorem run_result : θ_run defs (onTc (τ := τ) (main (F := F))) ⟨m, fun _ => 0, ρ⟩ (fun r => ∀ c : Dev nD,
      r.2.mem ((c.tc : Thread nD τ).loc main_v104) = W13 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v104 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.ValueRun

end
-- ==== Proof.BlockProduct.lean ====
/-
  What one grid point's body stores, read at an index, at the ideal instance.

  Each of the three Pallas bodies loads a block of rows `x` and a whole weight matrix `w`, casts both to bf16
  (the identity on extended reals) and multiplies them on the MXU into a zero accumulator.  So entry (r, j) of the
  stored block is the plain sum over the contracted axis,  Σ_k x(r,k) · w(k,j);  the last body adds the bias row
  `b(0,j)`, broadcast down the rows, to that sum.  The three lemmas below say exactly this, over the literal block shapes.
-/
import proofs.«134480_j73272142070373_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.TcCoe

/-! ## The two factors of term `k` of output entry `j` -/

/-- Entry (row of `j`, `k`) of a 5000×128 block of rows. -/
abbrev rowTerm (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of a 128×128 weight matrix. -/
abbrev colTerm (j : S5000x128.Idx) (k : Fin 128) : S128x128.Idx := fun a => match a with
  | ⟨0, _⟩ => ⟨k.val, k.isLt⟩
  | ⟨1, _⟩ => ⟨(j 1).val, (j 1).isLt⟩
/-- Entry (row of `j`, `k`) of the 512×128 pooled matrix. -/
abbrev poolTerm (j : S512x2.Idx) (k : Fin 128) : S512x128.Idx := fun a => match a with
  | ⟨0, _⟩ => ⟨(j 0).val, (j 0).isLt⟩
  | ⟨1, _⟩ => ⟨k.val, k.isLt⟩
/-- Entry (`k`, column of `j`) of the 128×2 output weights. -/
abbrev headTerm (j : S512x2.Idx) (k : Fin 128) : S128x2.Idx := fun a => match a with
  | ⟨0, _⟩ => ⟨k.val, k.isLt⟩
  | ⟨1, _⟩ => ⟨(j 1).val, (j 1).isLt⟩
/-- Entry (0, column of `j`) of the 1×2 bias row. -/
abbrev biasTerm (j : S512x2.Idx) : S1x2.Idx := fun a => match a with
  | ⟨0, _⟩ => ⟨0, (Nat.zero_lt_one : 0 < 1)⟩
  | ⟨1, _⟩ => ⟨(j 1).val, (j 1).isLt⟩

/-! ## A 5000×128 by 128×128 product into zero, at an index -/

/-- Left operand's row coordinate at output entry `i`: the output's row. -/
theorem product_lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand's column coordinate: the contracted index. -/
theorem product_lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- Right operand's row coordinate: the contracted index. -/
theorem product_rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- Right operand's column coordinate: the output's column. -/
theorem product_rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The MXU product of a block of rows with a weight matrix, into zero: entry `j` is the sum over the contracted axis. -/
theorem product_apply (x : FVec Ideal S5000x128 .bf16) (w : FVec Ideal S128x128 .bf16) (j : S5000x128.Idx) :
    FloatOps.matmul dot_S5000x128_S128x128_S5000x128_1_0_0_1_n_n none x w (constant (F := Ideal) S5000x128 .f32 0x00000000#32) j
      = ∑ k : Fin 128, x (rowTerm j k) * w (colTerm j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowTerm j k := funext fun a => Fin.ext (by
    match a with
    | ⟨0, _⟩ => exact product_lhs_row _ _
    | ⟨1, _⟩ => exact (product_lhs_col _ _).trans hk)
  have er : dot_S5000x128_S128x128_S5000x128_1_0_0_1_n_n.rhsIdx j ((ValueIdx.contrEquiv1 dot_S5000x128_S128x128_S5000x128_1_0_0_1_n_n 128 rfl rfl).symm k) = colTerm j k := funext fun a => Fin.ext (by
    match a with
    | ⟨0, _⟩ => exact (product_rhs_row _ _).trans hk
    | ⟨1, _⟩ => exact product_rhs_col _ _)
  rw [el, er]

/-- The first layer's body: the stored block at `j` is Σ_k x(row j, k) · w(k, col j). -/
theorem layer1_block_apply (x : Vec Ideal S5000x128 .f32) (w : Vec Ideal S128x128 .f32) (j : S5000x128.Idx) :
    k0_pay1 (F := Ideal) x w j = ∑ k : Fin 128, x (rowTerm j k) * w (colTerm j k) :=
  product_apply x w j

/-- The second layer's body: the same product (its extra shape cast is between equal shapes). -/
theorem layer2_block_apply (x : Vec Ideal S5000x128 .f32) (w : Vec Ideal S128x128 .f32) (j : S5000x128.Idx) :
    k1_pay1 (F := Ideal) x w j = ∑ k : Fin 128, x (rowTerm j k) * w (colTerm j k) := by
  unfold k1_pay1
  rw [shapeCast_self]
  exact product_apply x w j

/-! ## The 512×128 by 128×2 product plus the bias row, at an index -/

/-- Left operand's row coordinate at output entry `i`: the output's row. -/
theorem head_product_lhs_row (i : S512x2.Idx) (q : dot_S512x128_S128x2_S512x2_1_0_0_1_n_n.contr.Idx) : (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
/-- Left operand's column coordinate: the contracted index. -/
theorem head_product_lhs_col (i : S512x2.Idx) (q : dot_S512x128_S128x2_S512x2_1_0_0_1_n_n.contr.Idx) : (dot_S512x128_S128x2_S512x2_1_0_0_1_n_n.lhsIdx i q 1).val = (q ⟨0, by decide⟩).val :=
  dot_S512x128_S128x2_S512x2_1_0_0_1_n_n.lhsIdx_val_of_single rfl i q
/-- Right operand's row coordinate: the contracted index. -/
theorem head_product_rhs_row (i : S512x2.Idx) (q : dot_S512x128_S128x2_S512x2_1_0_0_1_n_n.contr.Idx) : (dot_S512x128_S128x2_S512x2_1_0_0_1_n_n.rhsIdx i q 0).val = (q ⟨0, by decide⟩).val :=
  dot_S512x128_S128x2_S512x2_1_0_0_1_n_n.rhsIdx_val_of_single rfl i q
/-- Right operand's column coordinate: the output's column. -/
theorem head_product_rhs_col (i : S512x2.Idx) (q : dot_S512x128_S128x2_S512x2_1_0_0_1_n_n.contr.Idx) : (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The MXU product of the pooled matrix with the output weights, into zero. -/
theorem head_product_apply (x : FVec Ideal S512x128 .bf16) (w : FVec Ideal S128x2 .bf16) (j : S512x2.Idx) :
    FloatOps.matmul dot_S512x128_S128x2_S512x2_1_0_0_1_n_n none x w (constant (F := Ideal) S512x2 .f32 0x00000000#32) j
      = ∑ k : Fin 128, x (poolTerm j k) * w (headTerm j k) := by
  rw [Ideal.matmul_constant_zero_apply, ← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx j ((ValueIdx.contrEquiv1 dot_S512x128_S128x2_S512x2_1_0_0_1_n_n 128 rfl rfl).symm k) = poolTerm j k := funext fun a => Fin.ext (by
    match a with
    | ⟨0, _⟩ => exact head_product_lhs_row _ _
    | ⟨1, _⟩ => exact (head_product_lhs_col _ _).trans hk)
  have er : dot_S512x128_S128x2_S512x2_1_0_0_1_n_n.rhsIdx j ((ValueIdx.contrEquiv1 dot_S512x128_S128x2_S512x2_1_0_0_1_n_n 128 rfl rfl).symm k) = headTerm j k := funext fun a => Fin.ext (by
    match a with
    | ⟨0, _⟩ => exact (head_product_rhs_row _ _).trans hk
    | ⟨1, _⟩ => exact head_product_rhs_col _ _)
  rw [el, er]

/-- The bias row broadcast down the 512 rows: entry `j` is the row's entry in `j`'s column. -/
theorem bias_rows_apply (b : Vec Ideal S1x2 .f32) (j : S512x2.Idx) :
    broadcastTo S512x2 b broadcasts_S1x2_S512x2 j = b (biasTerm j) :=
  broadcastTo_apply b broadcasts_S1x2_S512x2 j (biasTerm j) (fun a => by
    match a with
    | ⟨0, _⟩ => rfl
    | ⟨1, _⟩ => rfl)

/-- The last body: the stored block at `j` is Σ_k x(row j, k) · w(k, col j) + b(0, col j). -/
theorem head_block_apply (x : Vec Ideal S512x128 .f32) (w : Vec Ideal S128x2 .f32) (b : Vec Ideal S1x2 .f32) (j : S512x2.Idx) :
    k2_pay1 (F := Ideal) x w b j = (∑ k : Fin 128, x (poolTerm j k) * w (headTerm j k)) + b (biasTerm j) := by
  unfold k2_pay1
  rw [shapeCast_self, shapeCast_self, shapeCast_self]
  show FloatOps.matmul dot_S512x128_S128x2_S512x2_1_0_0_1_n_n none (x : FVec Ideal S512x128 .bf16) (w : FVec Ideal S128x2 .bf16) (constant (F := Ideal) S512x2 .f32 0x00000000#32) j
      + broadcastTo S512x2 b broadcasts_S1x2_S512x2 j = _
  rw [head_product_apply, bias_rows_apply]

end Cert.KernelIdeal.BlockProduct

end
-- ==== Proof.RegionProduct.lean ====
/-
  What each of the three kernel regions leaves in its result array, at the ideal instance, as ONE function of the
  arrays the region finds when it is entered.

  Regions 0 and 1 run the matmul body at twenty grid points; point `t` reads rows 5000·t … 5000·t+4999 of the left
  operand and the whole 128×128 weight matrix, and writes the same rows of the result.  A block's entry (r, j) is
  Σ_k x(5000·t + r, k) · w(k, j)  (BlockProduct), which is entry (5000·t + r, j) of the whole product
  `rowsTimes x w`; the twenty blocks of rows tile the 100000 rows, so the result array IS `rowsTimes x w`.
  Region 2 has one point whose blocks are the whole arrays: the result is `headOf x w b`, the product plus the
  bias row on every row.
-/
import proofs.«134480_j73272142070373_1_alg».proof.Proof.Gen.KernelIdeal.Frame
import proofs.«134480_j73272142070373_1_alg».proof.Proof.BlockProduct
import Idealize.ShloMosaic.Lib.Pipeline.Value

set_option maxRecDepth 16384

noncomputable section

namespace Cert.KernelIdeal.RegionProduct

open Cert.KernelIdeal Cert.KernelIdeal.Gen Cert.KernelIdeal.BlockProduct
open Idealize.ShloMosaic Idealize.ShloMosaic.TcCoe Idealize.SL.Sem
open Idealize.ShloMosaic.Pipeline (Dat)

/-! ## The whole-array functions -/

/-- Entry (row of `i`, `k`) of a 100000×128 array. -/
abbrev nodeTerm (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of a 128×128 weight matrix. -/
abbrev weightTerm (i : S100000x128.Idx) (k : Fin 128) : S128x128.Idx := fun a => match a with
  | ⟨0, _⟩ => ⟨k.val, k.isLt⟩
  | ⟨1, _⟩ => ⟨(i 1).val, (i 1).isLt⟩

/-- The product of a 100000×128 array with a 128×128 matrix: entry (n, j) is Σ_k x(n,k) · w(k,j). -/
def rowsTimes (x : S100000x128.Idx → EReal) (w : S128x128.Idx → EReal) : S100000x128.Idx → EReal :=
  fun i => ∑ k : Fin 128, x (nodeTerm i k) * w (weightTerm i k)

/-- The output head: entry (g, j) is Σ_k x(g,k) · w(k,j) + b(0,j). -/
def headOf (x : S512x128.Idx → EReal) (w : S128x2.Idx → EReal) (b : S1x2.Idx → EReal) : S512x2.Idx → EReal :=
  fun i => (∑ k : Fin 128, x (poolTerm i k) * w (headTerm i k)) + b (biasTerm i)

/-- The bodies load and store at the origin of their blocks. -/
theorem origin2 : (![0, 0] : Fin 2 → Nat) = fun _ => 0 := funext fun a => by fin_cases a <;> rfl

/-! ## The first layer's product (region 0): rows of `x` times `W1` -/

section Layer1

variable (V : (c : Dev nD) → (b : Ref sig .tc) → Buf (Elt Ideal) ((c : Thread nD τ).loc b))

/-- The printed index maps over the twenty points: point `t` reads row block `t` of the left operand and writes row block
    `t` of the result; the weight matrix is one block, read whole at every point. -/
theorem layer1_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem layer1_flushed (c : Dev nD) (t : Fin cfg0.N) :
    (dat0 V c).flushed 2 t = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := layer1_index_maps t
  funext j
  show k0_pay1 (iblk0 V c 0 t) (iblk0 V c 1 t) j = rowsTimes (V c main_arg0) (V c main_arg4) (((cfg0.win 2).blk t).view.emb j)
  refine (layer1_block_apply (iblk0 V c 0 t) (iblk0 V c 1 t) j).trans ?_
  unfold rowsTimes
  refine Finset.sum_congr rfl fun k _ => ?_
  have e0 : ((cfg0.win 0).blk t).view.emb (rowTerm j k) = nodeTerm (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have e1 : ((cfg0.win 1).blk t).view.emb (colTerm j k) = weightTerm (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have h0 : iblk0 V c 0 t (rowTerm j k) = V c main_arg0 (nodeTerm (((cfg0.win 2).blk t).view.emb j) k) := congrArg (V c main_arg0) e0
  have h1 : iblk0 V c 1 t (colTerm j k) = V c main_arg4 (weightTerm (((cfg0.win 2).blk t).view.emb j) k) := congrArg (V c main_arg4) e1
  rw [h0, h1]

/-- An index is in point `t`'s result block iff each coordinate is in the block's range on its axis. -/
theorem layer1_mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v9).slice (win0_2.rect t)).set ↔ _
  rw [View.set_slice_whole, Rect.mem_set_unit]
  exact Iff.rfl

/-- The twenty blocks of 5000 rows cover the 100000 rows: row `r` is in the block of point `r / 5000`. -/
theorem layer1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by have hN : grid0.N = 20 := N_0; show (i 0).val / 5000 < grid0.N; omega⟩, rfl⟩
  obtain ⟨e0, e1, e2, e3, e4, e5⟩ := layer1_index_maps t
  refine ⟨t, flush0_2 t, ?_⟩
  rw [layer1_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array holds the whole product of the two operand arrays as the region found them. -/
theorem layer1_array (c : Dev nD) :
    (dat0 V c).arrAt 2 cfg0.N = rowsTimes (V c main_arg0) (V c main_arg4) :=
  (dat0 V c).arrAt_eq_of_cover 2 (rowsTimes (V c main_arg0) (V c main_arg4)) (fun t _ => layer1_flushed V c t) layer1_cover

end Layer1

/-! ## The first layer's product (region 0): rows of `x` times `W1` -/

section Layer2

variable (V : (c : Dev nD) → (b : Ref sig .tc) → Buf (Elt Ideal) ((c : Thread nD τ).loc b))

/-- The printed index maps over the twenty points: point `t` reads row block `t` of the left operand and writes row block
    `t` of the result; the weight matrix is one block, read whole at every point. -/
theorem layer2_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region finds. -/
theorem layer2_flushed (c : Dev nD) (t : Fin cfg1.N) :
    (dat1 V c).flushed 2 t = ((cfg1.win 2).blk t).view.read (Elt Ideal) (rowsTimes (V c main_v49) (V c main_arg6)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x128) origin2]
  obtain ⟨e0, e1, e2, e3, e4, e5⟩ := layer2_index_maps t
  funext j
  show k1_pay1 (iblk1 V c 0 t) (iblk1 V c 1 t) j = rowsTimes (V c main_v49) (V c main_arg6) (((cfg1.win 2).blk t).view.emb j)
  refine (layer2_block_apply (iblk1 V c 0 t) (iblk1 V c 1 t) j).trans ?_
  unfold rowsTimes
  refine Finset.sum_congr rfl fun k _ => ?_
  have e0 : ((cfg1.win 0).blk t).view.emb (rowTerm j k) = nodeTerm (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have e1 : ((cfg1.win 1).blk t).view.emb (colTerm j k) = weightTerm (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  have h0 : iblk1 V c 0 t (rowTerm j k) = V c main_v49 (nodeTerm (((cfg1.win 2).blk t).view.emb j) k) := congrArg (V c main_v49) e0
  have h1 : iblk1 V c 1 t (colTerm j k) = V c main_arg6 (weightTerm (((cfg1.win 2).blk t).view.emb j) k) := congrArg (V c main_arg6) e1
  rw [h0, h1]

/-- An index is in point `t`'s result block iff each coordinate is in the block's range on its axis. -/
theorem layer2_mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The twenty blocks of 5000 rows cover the 100000 rows: row `r` is in the block of point `r / 5000`. -/
theorem layer2_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by have hN : grid1.N = 20 := N_1; show (i 0).val / 5000 < grid1.N; omega⟩, rfl⟩
  obtain ⟨e0, e1, e2, e3, e4, e5⟩ := layer2_index_maps t
  refine ⟨t, flush1_2 t, ?_⟩
  rw [layer2_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array holds the whole product of the two operand arrays as the region found them. -/
theorem layer2_array (c : Dev nD) :
    (dat1 V c).arrAt 2 cfg1.N = rowsTimes (V c main_v49) (V c main_arg6) :=
  (dat1 V c).arrAt_eq_of_cover 2 (rowsTimes (V c main_v49) (V c main_arg6)) (fun t _ => layer2_flushed V c t) layer2_cover

end Layer2

/-! ## The output head (region 2): the pooled matrix times `Wl`, plus the bias row -/

section Head

variable (V : (c : Dev nD) → (b : Ref sig .tc) → Buf (Elt Ideal) ((c : Thread nD τ).loc b))

/-- One grid point; every window is its whole array. -/
theorem head_index_maps : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the one point writes back is the whole head of the arrays the region finds. -/
theorem head_flushed (c : Dev nD) (t : Fin cfg2.N) :
    (dat2 V c).flushed 3 t = ((cfg2.win 3).blk t).view.read (Elt Ideal) (headOf (V c main_v102) (V c main_arg8) (V c main_v103)) := by
  show (cfg2.win 3).cut (grid2.coords t) ((dat2 V c).after 3 t) = _
  rw [after2_3]
  unfold out2_3
  rw [View.canon_unit_zero origin2]
  simp only [View.ld_unit_zero (S := S512x128) origin2, View.ld_unit_zero (S := S128x2) origin2, View.ld_unit_zero (S := S1x2) origin2]
  obtain ⟨e0, e1, e2, e3, e4, e5, e6, e7⟩ := head_index_maps t
  funext j
  show k2_pay1 (iblk2 V c 0 t) (iblk2 V c 1 t) (iblk2 V c 2 t) j = headOf (V c main_v102) (V c main_arg8) (V c main_v103) (((cfg2.win 3).blk t).view.emb j)
  refine (head_block_apply (iblk2 V c 0 t) (iblk2 V c 1 t) (iblk2 V c 2 t) j).trans ?_
  unfold headOf
  have eA : ∀ k : Fin 128, ((cfg2.win 0).blk t).view.emb (poolTerm j k) = poolTerm (((cfg2.win 3).blk t).view.emb j) k := fun k => by
    funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 128 + 1 * k.val = k.val; omega
  have eB : ∀ k : Fin 128, ((cfg2.win 1).blk t).view.emb (headTerm j k) = headTerm (((cfg2.win 3).blk t).view.emb j) k := fun k => by
    funext a; apply Fin.ext
    match a with
    | ⟨0, _⟩ => show win2_1.index t (0 : Fin 2) * 128 + 1 * k.val = k.val; omega
    | ⟨1, _⟩ => show win2_1.index t (1 : Fin 2) * 2 + 1 * (j 1).val = win2_3.index t (1 : Fin 2) * 2 + 1 * (j 1).val; omega
  have eC : ((cfg2.win 2).blk t).view.emb (biasTerm j) = biasTerm (((cfg2.win 3).blk t).view.emb j) := by
    funext a; apply Fin.ext
    match a with
    | ⟨0, _⟩ => show win2_2.index t (0 : Fin 2) * 1 + 1 * 0 = 0; omega
    | ⟨1, _⟩ => show win2_2.index t (1 : Fin 2) * 2 + 1 * (j 1).val = win2_3.index t (1 : Fin 2) * 2 + 1 * (j 1).val; omega
  have hA : ∀ k : Fin 128, iblk2 V c 0 t (poolTerm j k) = V c main_v102 (poolTerm (((cfg2.win 3).blk t).view.emb j) k) := fun k => congrArg (V c main_v102) (eA k)
  have hB : ∀ k : Fin 128, iblk2 V c 1 t (headTerm j k) = V c main_arg8 (headTerm (((cfg2.win 3).blk t).view.emb j) k) := fun k => congrArg (V c main_arg8) (eB k)
  have hC : iblk2 V c 2 t (biasTerm j) = V c main_v103 (biasTerm (((cfg2.win 3).blk t).view.emb j)) := congrArg (V c main_v103) eC
  rw [hC]
  exact congrArg (· + _) (Finset.sum_congr rfl fun k _ => by rw [hA k, hB k])

/-- An index is in the one point's result block iff each coordinate is in the block's range on its axis. -/
theorem head_mem_block (t : Fin cfg2.N) (i : S512x2.Idx) :
    i ∈ ((cfg2.win 3).blk t).view.set ↔ ∀ a : Fin 2, win2_3.index t a * S512x2.size a ≤ (i a).val ∧ (i a).val < win2_3.index t a * S512x2.size a + S512x2.size a := by
  show i ∈ ((View.whole main_v104).slice (win2_3.rect t)).set ↔ _
  rw [View.set_slice_whole, Rect.mem_set_unit]
  exact Iff.rfl

/-- The one block is the whole 512×2 array. -/
theorem head_cover (i : S512x2.Idx) :
    ∃ t : Fin cfg2.N, (cfg2.win 3).flush t = true ∧ i ∈ ((cfg2.win 3).blk t).view.set := by
  have hi0 : (i 0).val < 512 := (i 0).isLt
  have hi1 : (i 1).val < 2 := (i 1).isLt
  obtain ⟨e0, e1, e2, e3, e4, e5, e6, e7⟩ := head_index_maps t2_0
  refine ⟨t2_0, flush2_3 t2_0, ?_⟩
  rw [head_mem_block]
  intro a
  match a with
  | ⟨0, _⟩ => show win2_3.index t2_0 (0 : Fin 2) * 512 ≤ (i 0).val ∧ (i 0).val < win2_3.index t2_0 (0 : Fin 2) * 512 + 512; omega
  | ⟨1, _⟩ => show win2_3.index t2_0 (1 : Fin 2) * 2 ≤ (i 1).val ∧ (i 1).val < win2_3.index t2_0 (1 : Fin 2) * 2 + 2; omega

/-- After the region its result array holds the head of the three operand arrays as the region found them. -/
theorem head_array (c : Dev nD) :
    (dat2 V c).arrAt 3 cfg2.N = headOf (V c main_v102) (V c main_arg8) (V c main_v103) :=
  (dat2 V c).arrAt_eq_of_cover 3 (headOf (V c main_v102) (V c main_arg8) (V c main_v103)) (fun t _ => head_flushed V c t) head_cover

end Head

end Cert.KernelIdeal.RegionProduct

end
-- ==== Proof.Bridge.lean ====
/-
  The idealized kernel's result is the reference's last stage of the ten argument arrays.

  The reference is one straight line of host operations; the generated reading of it names each operation's value as
  a function of the arguments (`val_main_vN`).  The kernel runs the SAME host operations, except that the three
  `dot_general`s are kernel regions.  At the ideal instance a region's result array is the plain matrix product of
  the arrays it finds (RegionProduct), and the reference's `dot_general` is the same sum over the contracted axis, so

    • after region 0 the buffer `%9` holds the reference's `%9` = x · W1;
    • the host operations up to region 1 are the reference's own (degree by scatter-add, its guarded inverse square
      root, the normalised gather / scale / scatter-add of messages, bias, relu), so region 1 finds the reference's
      `%49`, and leaves the reference's `%50` = h1 · W2;
    • the host operations up to region 2 are again the reference's (second layer, then the mean pool over graph ids),
      so region 2 finds the reference's `%102`, the weights and the bias as a 1×2 row, and leaves
      pooled · Wl + bias on every row: the reference's `%106`.

  No law of the extended reals is used beyond reading both products as the same finite sum: the two programs apply
  the same operations in the same order, so no finiteness of the inputs is needed.
-/
import proofs.«134480_j73272142070373_1_alg».proof.Proof.Gen.KernelIdeal.Frame
import proofs.«134480_j73272142070373_1_alg».proof.Proof.RegionProduct
import proofs.«134480_j73272142070373_1_alg».proof.Proof.Gen.ReferenceIdeal.Read

set_option maxRecDepth 16384

noncomputable section

namespace Cert.KernelIdeal.Bridge

open Cert.KernelIdeal Cert.KernelIdeal.Gen Cert.KernelIdeal.BlockProduct Cert.KernelIdeal.RegionProduct
open Idealize.ShloMosaic Idealize.ShloMosaic.TcCoe Idealize.SL.Sem Idealize.ShloMosaic.StableHlo
open Cert.ReferenceIdeal.Read (val_main_v3 val_main_v6 val_main_v8 val_main_v9 val_main_v49 val_main_v50 val_main_v102 val_main_v103 val_main_v104 val_main_v105 val_main_v106)

/-! ## The two products are the reference's stages -/

/-- The whole product of a 100000×128 array with a 128×128 matrix is the reference's `dot_general` of them: both are,
    entry by entry, the sum over the contracted axis. -/
theorem rowsTimes_eq_dot (x : S100000x128.Idx → EReal) (w : S128x128.Idx → EReal) :
    rowsTimes x w = val_main_v9 (F := Ideal) x w := by
  funext i
  rw [Cert.ReferenceIdeal.Read.val_main_v9_apply]
  unfold rowsTimes
  refine Finset.sum_congr rfl fun k _ => ?_
  have el : nodeTerm i k = Cert.ReferenceIdeal.Read.lidx_main_v9 i k := funext fun a => by
    match a with
    | ⟨0, _⟩ => rfl
    | ⟨1, _⟩ => rfl
  have er : weightTerm i k = Cert.ReferenceIdeal.Read.ridx_main_v9 i k := funext fun a => by
    match a with
    | ⟨0, _⟩ => rfl
    | ⟨1, _⟩ => rfl
  rw [el, er]

/-- The head of the reference's pooled matrix, the output weights and the bias reshaped to a row is the reference's
    result: its `dot_general` plus its bias broadcast to every row. -/
theorem headOf_eq_result (x0 : S100000x128.Idx → EReal) (x1 : S2x1600000.Idx → BitVec 32) (x2 : S1600000.Idx → EReal)
    (x3 : S100000.Idx → BitVec 32) (x4 : S128x128.Idx → EReal) (x5 : S128.Idx → EReal) (x6 : S128x128.Idx → EReal)
    (x7 : S128.Idx → EReal) (x8 : S128x2.Idx → EReal) (x9 : S2.Idx → EReal) :
    headOf (val_main_v102 (F := Ideal) x0 x1 x2 x3 x4 x5 x6 x7) x8 (shapeCast S1x2 x9 shapeCasts_S2_S1x2)
      = val_main_v106 (F := Ideal) x0 x1 x2 x3 x4 x5 x6 x7 x8 x9 := by
  funext i
  rw [Cert.ReferenceIdeal.Read.val_main_v106_apply, Cert.ReferenceIdeal.Read.val_main_v103_apply, Cert.ReferenceIdeal.Read.val_main_v105_apply, Cert.ReferenceIdeal.Read.val_main_v104_apply, Ideal.addf_def]
  unfold headOf
  generalize val_main_v102 (F := Ideal) x0 x1 x2 x3 x4 x5 x6 x7 = pooled
  have eb : shapeCast S1x2 x9 shapeCasts_S2_S1x2 (biasTerm i) = x9 (Cert.ReferenceIdeal.Read.idx_main_v104 (Cert.ReferenceIdeal.Read.idx_main_v105 i)) := by
    rw [shapeCast_addUnit_apply ![2] x9 shapeCasts_S2_S1x2 (biasTerm i)]
    exact congrArg x9 (funext fun a => by
      match a with
      | ⟨0, _⟩ => rfl)
  have el : ∀ k : Fin 128, poolTerm i k = Cert.ReferenceIdeal.Read.lidx_main_v103 i k := fun k => funext fun a => by
    match a with
    | ⟨0, _⟩ => rfl
    | ⟨1, _⟩ => rfl
  have er : ∀ k : Fin 128, headTerm i k = Cert.ReferenceIdeal.Read.ridx_main_v103 i k := fun k => funext fun a => by
    match a with
    | ⟨0, _⟩ => rfl
    | ⟨1, _⟩ => rfl
  rw [eb]
  simp only [el, er]

/-! ## The buffers at the segment boundaries, for any float instance

The host stretches are the reference's own operations, so what they leave is the reference's stage whatever the
float instance: only the regions' results need the ideal instance, and enter here as hypotheses. -/

section Boundaries

variable {F : FTy → Type} [FloatOps F]
variable (m : (ℓ : Loc nD τ sig) → Buf (Elt F) ℓ) (ρ : Dev nD → PrngReg) (c : Dev nD)

/-! ### After the first stretch (row / column index vectors with self-loops appended, edge weights with ones appended) -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl
/-- `%3`: the source-node index of every edge, self-loops last. -/
theorem W1_v3 : W1 m ρ c (Proc.devRef .tc main_v3) = val_main_v3 (F := F) (m ((c : Thread nD τ).loc main_arg1)) := by
  show StableHlo.after hostOps0 (W0 m ρ c) (Proc.devRef .tc main_v3) = _
  after_results_simp <;> rfl
/-- `%6`: the target-node index of every edge, self-loops last. -/
theorem W1_v6 : W1 m ρ c (Proc.devRef .tc main_v6) = val_main_v6 (F := F) (m ((c : Thread nD τ).loc main_arg1)) := by
  show StableHlo.after hostOps0 (W0 m ρ c) (Proc.devRef .tc main_v6) = _
  after_results_simp <;> rfl
/-- `%8`: the edge weights, ones for the self-loops last. -/
theorem W1_v8 : W1 m ρ c (Proc.devRef .tc main_v8) = val_main_v8 (F := F) (m ((c : Thread nD τ).loc main_arg2)) := by
  show StableHlo.after hostOps0 (W0 m ρ c) (Proc.devRef .tc main_v8) = _
  after_results_simp <;> rfl

/-! ### After region 0: every buffer that is not one of its arrays is as it was -/

theorem W2_arg3 : W2 m ρ c (Proc.devRef .tc main_arg3) = m ((c : Thread nD τ).loc main_arg3) :=
  (W2_of_ne m ρ c main_arg3 (by decide)).trans (W1_arg3 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_v3 : W2 m ρ c (Proc.devRef .tc main_v3) = val_main_v3 (F := F) (m ((c : Thread nD τ).loc main_arg1)) :=
  (W2_of_ne m ρ c main_v3 (by decide)).trans (W1_v3 m ρ c)
theorem W2_v6 : W2 m ρ c (Proc.devRef .tc main_v6) = val_main_v6 (F := F) (m ((c : Thread nD τ).loc main_arg1)) :=
  (W2_of_ne m ρ c main_v6 (by decide)).trans (W1_v6 m ρ c)
theorem W2_v8 : W2 m ρ c (Proc.devRef .tc main_v8) = val_main_v8 (F := F) (m ((c : Thread nD τ).loc main_arg2)) :=
  (W2_of_ne m ρ c main_v8 (by decide)).trans (W1_v8 m ρ c)

/-! ### At region 1's entry: the first layer's output after bias and relu -/

set_option maxHeartbeats 8000000 in
/-- The stretch between regions 0 and 1 (degree by scatter-add, its guarded inverse square root, the normalised
    gather / scale / scatter-add of messages, bias, relu), applied to the first product, is the reference's first layer. -/
theorem W6_v49 (hprod : W2 m ρ c (Proc.devRef .tc main_v9) = val_main_v9 (F := F) (m ((c : Thread nD τ).loc main_arg0)) (m ((c : Thread nD τ).loc main_arg4))) :
    W6 m ρ c (Proc.devRef .tc main_v49) = val_main_v49 (F := F) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1_3 (StableHlo.after hostOps1_2 (StableHlo.after hostOps1_1 (StableHlo.after hostOps1 (W2 m ρ c)))) (Proc.devRef .tc main_v49) = _
  after_results_simp
  rw [hprod, W2_v3 m ρ c, W2_v6 m ρ c, W2_v8 m ρ c, W2_arg5 m ρ c]
  rfl
theorem W6_arg3 : W6 m ρ c (Proc.devRef .tc main_arg3) = m ((c : Thread nD τ).loc main_arg3) := by
  show StableHlo.after hostOps1_3 (StableHlo.after hostOps1_2 (StableHlo.after hostOps1_1 (StableHlo.after hostOps1 (W2 m ρ c)))) (Proc.devRef .tc main_arg3) = _
  after_results_simp
  exact W2_arg3 m ρ c
theorem W6_arg6 : W6 m ρ c (Proc.devRef .tc main_arg6) = m ((c : Thread nD τ).loc main_arg6) := by
  show StableHlo.after hostOps1_3 (StableHlo.after hostOps1_2 (StableHlo.after hostOps1_1 (StableHlo.after hostOps1 (W2 m ρ c)))) (Proc.devRef .tc main_arg6) = _
  after_results_simp
  exact W2_arg6 m ρ c
theorem W6_arg7 : W6 m ρ c (Proc.devRef .tc main_arg7) = m ((c : Thread nD τ).loc main_arg7) := by
  show StableHlo.after hostOps1_3 (StableHlo.after hostOps1_2 (StableHlo.after hostOps1_1 (StableHlo.after hostOps1 (W2 m ρ c)))) (Proc.devRef .tc main_arg7) = _
  after_results_simp
  exact W2_arg7 m ρ c
theorem W6_arg8 : W6 m ρ c (Proc.devRef .tc main_arg8) = m ((c : Thread nD τ).loc main_arg8) := by
  show StableHlo.after hostOps1_3 (StableHlo.after hostOps1_2 (StableHlo.after hostOps1_1 (StableHlo.after hostOps1 (W2 m ρ c)))) (Proc.devRef .tc main_arg8) = _
  after_results_simp
  exact W2_arg8 m ρ c
theorem W6_arg9 : W6 m ρ c (Proc.devRef .tc main_arg9) = m ((c : Thread nD τ).loc main_arg9) := by
  show StableHlo.after hostOps1_3 (StableHlo.after hostOps1_2 (StableHlo.after hostOps1_1 (StableHlo.after hostOps1 (W2 m ρ c)))) (Proc.devRef .tc main_arg9) = _
  after_results_simp
  exact W2_arg9 m ρ c
theorem W6_v3 : W6 m ρ c (Proc.devRef .tc main_v3) = val_main_v3 (F := F) (m ((c : Thread nD τ).loc main_arg1)) := by
  show StableHlo.after hostOps1_3 (StableHlo.after hostOps1_2 (StableHlo.after hostOps1_1 (StableHlo.after hostOps1 (W2 m ρ c)))) (Proc.devRef .tc main_v3) = _
  after_results_simp
  exact W2_v3 m ρ c
theorem W6_v6 : W6 m ρ c (Proc.devRef .tc main_v6) = val_main_v6 (F := F) (m ((c : Thread nD τ).loc main_arg1)) := by
  show StableHlo.after hostOps1_3 (StableHlo.after hostOps1_2 (StableHlo.after hostOps1_1 (StableHlo.after hostOps1 (W2 m ρ c)))) (Proc.devRef .tc main_v6) = _
  after_results_simp
  exact W2_v6 m ρ c
theorem W6_v8 : W6 m ρ c (Proc.devRef .tc main_v8) = val_main_v8 (F := F) (m ((c : Thread nD τ).loc main_arg2)) := by
  show StableHlo.after hostOps1_3 (StableHlo.after hostOps1_2 (StableHlo.after hostOps1_1 (StableHlo.after hostOps1 (W2 m ρ c)))) (Proc.devRef .tc main_v8) = _
  after_results_simp
  exact W2_v8 m ρ c

/-! ### After region 1 -/

theorem W7_arg3 : W7 m ρ c (Proc.devRef .tc main_arg3) = m ((c : Thread nD τ).loc main_arg3) :=
  (W7_of_ne m ρ c main_arg3 (by decide)).trans (W6_arg3 m ρ c)
theorem W7_arg7 : W7 m ρ c (Proc.devRef .tc main_arg7) = m ((c : Thread nD τ).loc main_arg7) :=
  (W7_of_ne m ρ c main_arg7 (by decide)).trans (W6_arg7 m ρ c)
theorem W7_arg8 : W7 m ρ c (Proc.devRef .tc main_arg8) = m ((c : Thread nD τ).loc main_arg8) :=
  (W7_of_ne m ρ c main_arg8 (by decide)).trans (W6_arg8 m ρ c)
theorem W7_arg9 : W7 m ρ c (Proc.devRef .tc main_arg9) = m ((c : Thread nD τ).loc main_arg9) :=
  (W7_of_ne m ρ c main_arg9 (by decide)).trans (W6_arg9 m ρ c)
theorem W7_v3 : W7 m ρ c (Proc.devRef .tc main_v3) = val_main_v3 (F := F) (m ((c : Thread nD τ).loc main_arg1)) :=
  (W7_of_ne m ρ c main_v3 (by decide)).trans (W6_v3 m ρ c)
theorem W7_v6 : W7 m ρ c (Proc.devRef .tc main_v6) = val_main_v6 (F := F) (m ((c : Thread nD τ).loc main_arg1)) :=
  (W7_of_ne m ρ c main_v6 (by decide)).trans (W6_v6 m ρ c)
theorem W7_v8 : W7 m ρ c (Proc.devRef .tc main_v8) = val_main_v8 (F := F) (m ((c : Thread nD τ).loc main_arg2)) :=
  (W7_of_ne m ρ c main_v8 (by decide)).trans (W6_v8 m ρ c)

/-! ### At region 2's entry: the mean-pooled second layer, the output weights, the bias as a row -/

set_option maxHeartbeats 8000000 in
/-- The stretch between regions 1 and 2 (the second layer's scatter-add, bias and relu, then the mean pool over graph
    ids), applied to the second product, is the reference's pooled matrix. -/
theorem W12_v102 (hprod : W7 m ρ c (Proc.devRef .tc main_v50) = val_main_v50 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) :
    W12 m ρ c (Proc.devRef .tc main_v102) = val_main_v102 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2_4 (StableHlo.after hostOps2_3 (StableHlo.after hostOps2_2 (StableHlo.after hostOps2_1 (StableHlo.after hostOps2 (W7 m ρ c))))) (Proc.devRef .tc main_v102) = _
  after_results_simp
  rw [hprod, W7_v3 m ρ c, W7_v6 m ρ c, W7_v8 m ρ c, W7_arg7 m ρ c, W7_arg3 m ρ c]
  rfl
theorem W12_arg8 : W12 m ρ c (Proc.devRef .tc main_arg8) = m ((c : Thread nD τ).loc main_arg8) := by
  show StableHlo.after hostOps2_4 (StableHlo.after hostOps2_3 (StableHlo.after hostOps2_2 (StableHlo.after hostOps2_1 (StableHlo.after hostOps2 (W7 m ρ c))))) (Proc.devRef .tc main_arg8) = _
  after_results_simp
  exact W7_arg8 m ρ c
/-- `%103`: the bias vector reshaped to a 1×2 row. -/
theorem W12_v103 : W12 m ρ c (Proc.devRef .tc main_v103) = shapeCast S1x2 (m ((c : Thread nD τ).loc main_arg9)) shapeCasts_S2_S1x2 := by
  show StableHlo.after hostOps2_4 (StableHlo.after hostOps2_3 (StableHlo.after hostOps2_2 (StableHlo.after hostOps2_1 (StableHlo.after hostOps2 (W7 m ρ c))))) (Proc.devRef .tc main_v103) = _
  after_results_simp
  rw [W7_arg9 m ρ c]
  rfl

end Boundaries

/-! ## At the ideal instance: the three regions' results -/

section Ideal

variable (m : (ℓ : Loc nD τ sig) → Buf (Elt Ideal) ℓ) (ρ : Dev nD → PrngReg) (c : Dev nD)

/-- After region 0 the buffer `%9` holds the reference's first product. -/
theorem first_product : W2 m ρ c (Proc.devRef .tc main_v9) = val_main_v9 (F := Ideal) (m ((c : Thread nD τ).loc main_arg0)) (m ((c : Thread nD τ).loc main_arg4)) :=
  (W2_arr m ρ c 2).trans ((layer1_array (V1 m ρ) c).trans ((rowsTimes_eq_dot _ _).trans
    (congrArg₂ (val_main_v9 (F := Ideal)) (W1_arg0 m ρ c) (W1_arg4 m ρ c))))

/-- After region 1 the buffer `%50` holds the reference's second product. -/
theorem second_product : W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W7_arr m ρ c 2).trans ((layer2_array (V6 m ρ) c).trans ((rowsTimes_eq_dot _ _).trans
    (congrArg₂ (val_main_v9 (F := Ideal)) (W6_v49 m ρ c (first_product m ρ c)) (W6_arg6 m ρ c))))

/-- The kernel's result buffer ends holding the reference's last stage of the ten argument arrays as launched. -/
theorem W13_result : W13 m ρ c (Proc.devRef .tc main_v104) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 3).trans ((head_array (V12 m ρ) c).trans ?_)
  show headOf (W12 m ρ c (Proc.devRef .tc main_v102)) (W12 m ρ c (Proc.devRef .tc main_arg8)) (W12 m ρ c (Proc.devRef .tc main_v103)) = _
  rw [W12_v102 m ρ c (second_product m ρ c), W12_arg8 m ρ c, W12_v103 m ρ c]
  exact headOf_eq_result _ _ _ _ _ _ _ _ _ _

end Ideal

end Cert.KernelIdeal.Bridge

end
-- ==== Proof.lean ====
/-
  A two-layer graph convolution with mean pooling and a linear head, on 100000 nodes, 1600000 weighted edges (plus one
  self-loop per node), 128 features and 512 graphs:

      h1  = relu( scatter_add( (x · W1)[row] · norm ) + b1 ),      norm = dis[row] · ew · dis[col],
      h2  = relu( scatter_add( (h1 · W2)[row] · norm ) + b2 ),     dis  = deg > 0 ? deg^(-1/2) : 0,  deg = scatter_add(ew),
      out = ( segment_sum(h2) / max(count, 1) ) · Wl + bl.

  The kernel program and the reference apply the same host operations in the same order; they differ only in the three
  matrix products, which the kernel computes in Pallas regions (row blocks of 5000 on the MXU, operands cast to bf16,
  f32 accumulation from zero; the last region also adds the bias row) where the reference calls `dot_general`.  At the
  ideal instance the casts are the identity and both are the exact sum over the contracted axis, so the two results are
  the same function of the ten arguments (Proof/Bridge.lean): no property of the inputs is used.

  The three frames are the generated ones (the reference's is its generated run with the result dropped); the ideal
  pass rewrote nothing, so `preserves` is `True`.
-/
import proofs.«134480_j73272142070373_1_alg».proof.Defs
import proofs.«134480_j73272142070373_1_alg».proof.Proof.Gen.Kernel
import proofs.«134480_j73272142070373_1_alg».proof.Proof.Gen.Kernel.Skeleton
import proofs.«134480_j73272142070373_1_alg».proof.Proof.Gen.Kernel.Launch
import proofs.«134480_j73272142070373_1_alg».proof.Proof.Gen.Kernel.Points
import proofs.«134480_j73272142070373_1_alg».proof.Proof.Gen.Kernel.Frame
import proofs.«134480_j73272142070373_1_alg».proof.Proof.Gen.KernelIdeal
import proofs.«134480_j73272142070373_1_alg».proof.Proof.Gen.KernelIdeal.Skeleton
import proofs.«134480_j73272142070373_1_alg».proof.Proof.Gen.KernelIdeal.Launch
import proofs.«134480_j73272142070373_1_alg».proof.Proof.Gen.KernelIdeal.Points
import proofs.«134480_j73272142070373_1_alg».proof.Proof.Gen.KernelIdeal.Frame
import proofs.«134480_j73272142070373_1_alg».proof.Proof.Gen.ReferenceIdeal
import proofs.«134480_j73272142070373_1_alg».proof.Proof.Gen.ReferenceIdeal.Run
import proofs.«134480_j73272142070373_1_alg».proof.Proof.Gen.ReferenceIdeal.Read
import proofs.«134480_j73272142070373_1_alg».proof.Proof.Gen.Pre_finite_inputs
import proofs.«134480_j73272142070373_1_alg».proof.Proof.ValueRun
import proofs.«134480_j73272142070373_1_alg».proof.Proof.Bridge
import Idealize.ShloMosaic.Adequacy
import Idealize.ShloMosaic.Init

noncomputable section

namespace Cert.Proof

open Idealize.ShloMosaic Idealize.ShloMosaic.TcCoe Idealize.SL.Sem

/-- Both idealized programs, from memories agreeing on the arguments, end with the reference's last stage of the
    kernel's launch arguments in their result buffers: the kernel by its run read at the last segment boundary, the
    reference by its generated run, the arguments' agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Bridge.W13_result m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v106_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
